-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x4096 : Shape := ⟨3, ![4, 4096, 4096]⟩
abbrev S128x128 : Shape := ⟨2, ![128, 128]⟩
abbrev S_ : Shape := ⟨0, ![]⟩

class Facts : Prop where
  bcast_S_S4x4096x4096 : S_.BroadcastsInDim S4x4096x4096 (![] : Fin 0 → Fin S4x4096x4096.rank)
  reducesTo_S4x4096x4096_S_d0_1_2 : S4x4096x4096.ReducesTo [0, 1, 2] S_
  h_S_ : 0 < S_.numel
  bcast_S_S128x128 : S_.BroadcastsInDim S128x128 (![] : Fin 0 → Fin S128x128.rank)
  reducesTo_S128x128_S_d0_1 : S128x128.ReducesTo [0, 1] S_

variable [Facts]

def fn {F : FTy → Type} [FloatOps F] (main_arg0 : FVec F S4x4096x4096 .f32) (main_arg1 : FVec F S128x128 .f32) : IVec S_ 1 :=
  let main_v0 : FVec F S4x4096x4096 .f32 := Host.absf main_arg0
  let main_cst : FVec F S_ .f32 := constant S_ .f32 0x7F800000#32
  let main_v1 : FVec F S4x4096x4096 .f32 := broadcastInDim S4x4096x4096 ![] bcast_S_S4x4096x4096 main_cst
  let main_v2 : IVec S4x4096x4096 1 := cmpf .olt main_v0 main_v1
  let main_c : IVec S_ 1 := constantI S_ 1 1#1
  let main_v3 : IVec S_ 1 := (fun x v => Host.reduce IntOp.andi x v reducesTo_S4x4096x4096_S_d0_1_2 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  main_v8
-- ==== Kernel.lean ====
abbrev S4x4096x4096 : Shape := ⟨3, ![4, 4096, 4096]⟩
abbrev S128x128 : Shape := ⟨2, ![128, 128]⟩
abbrev S_ : Shape := ⟨0, ![]⟩
abbrev S256x256 : Shape := ⟨2, ![256, 256]⟩
abbrev S1 : Shape := ⟨1, ![1]⟩
abbrev S2 : Shape := ⟨1, ![2]⟩
abbrev S262144x256 : Shape := ⟨2, ![262144, 256]⟩
abbrev S4096x256 : Shape := ⟨2, ![4096, 256]⟩

abbrev nBuf : Space → Nat
  | .hbm => 19
  | .vmem => 5
  | .smem => 0
  | _ => 0

abbrev bufTy : (tb : Table) → Fin (tcTables nBuf tb) → BufTy
  | .hbm, ⟨0, _⟩ => ⟨S4x4096x4096, .f32⟩
  | .hbm, ⟨1, _⟩ => ⟨S128x128, .f32⟩
  | .hbm, ⟨2, _⟩ => ⟨S_, .f32⟩
  | .hbm, ⟨3, _⟩ => ⟨S256x256, .f32⟩
  | .hbm, ⟨4, _⟩ => ⟨S_, .i32⟩
  | .hbm, ⟨5, _⟩ => ⟨S1, .i32⟩
  | .hbm, ⟨6, _⟩ => ⟨S_, .i32⟩
  | .hbm, ⟨7, _⟩ => ⟨S1, .i32⟩
  | .hbm, ⟨8, _⟩ => ⟨S2, .i32⟩
  | .hbm, ⟨9, _⟩ => ⟨S256x256, .f32⟩
  | .hbm, ⟨10, _⟩ => ⟨S_, .i32⟩
  | .hbm, ⟨11, _⟩ => ⟨S1, .i32⟩
  | .hbm, ⟨12, _⟩ => ⟨S_, .i32⟩
  | .hbm, ⟨13, _⟩ => ⟨S1, .i32⟩
  | .hbm, ⟨14, _⟩ => ⟨S2, .i32⟩
  | .hbm, ⟨15, _⟩ => ⟨S256x256, .f32⟩
  | .hbm, ⟨16, _⟩ => ⟨S262144x256, .f32⟩
  | .hbm, ⟨17, _⟩ => ⟨S262144x256, .f32⟩
  | .hbm, ⟨18, _⟩ => ⟨S4x4096x4096, .f32⟩
  | .local _ .vmem, ⟨0, _⟩ => ⟨S4096x256, .f32⟩
  | .local _ .vmem, ⟨1, _⟩ => ⟨S4096x256, .f32⟩
  | .local _ .vmem, ⟨2, _⟩ => ⟨S256x256, .f32⟩
  | .local _ .vmem, ⟨3, _⟩ => ⟨S4096x256, .f32⟩
  | .local _ .vmem, ⟨4, _⟩ => ⟨S4096x256, .f32⟩
  | _, _ => ⟨S4x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c_1 : Ref sig .tc := ⟨.hbm, 10, rfl⟩
abbrev main_v5 : Ref sig .tc := ⟨.hbm, 11, rfl⟩
abbrev main_c_2 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4096x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bcast_S_S256x256 : S_.BroadcastsInDim S256x256 (![] : Fin 0 → Fin S256x256.rank)
  bcast_S_S1 : S_.BroadcastsInDim S1 (![] : Fin 0 → Fin S1.rank)
  concatenates_S1_S1_S2_d0 : Shape.Concatenates [S1, S1] S2 0
  shapeCasts_S4x4096x4096_S262144x256 : S4x4096x4096.ShapeCasts S262144x256
  inb_S4096x256_S4096x256_0_0 : ∀ a, (![0, 0] : Fin 2 → Nat) a + S4096x256.size a ≤ S4096x256.size a
  h_S4096x256 : 0 < S4096x256.numel
  shapeCasts_S4096x256_S4096x256 : S4096x256.ShapeCasts S4096x256
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  shapeCasts_S256x256_S256x256 : S256x256.ShapeCasts S256x256
  shapeCasts_S262144x256_S4x4096x4096 : S262144x256.ShapeCasts S4x4096x4096
  scatter_S256x256_S2_S128x128_01_n_01_0_wf : ScatterDims.WF S256x256 S2 S128x128 [0, 1] [] [0, 1] 0
  dot_S4096x256_S256x256_S4096x256_1_0_0_1_n_n_wf : DotDims.WF S4096x256 S256x256 S4096x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x256.size a ≤ S262144x256.size a
  hwx0_0 : ∀ i : grid0.Coords, EltTy.bits .f32 = 32 ∨ (Rect.block (s := S262144x256) S4096x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x256.size a ≤ S262144x256.size a
  hwx0_2 : ∀ i : grid0.Coords, EltTy.bits .f32 = 32 ∨ (Rect.block (s := S262144x256) S4096x256.size (cc0_transform_2 i) (hinb0_2 i)).WholeWords (EltTy.packing .f32)

variable [Facts₀]

def scatter_S256x256_S2_S128x128_01_n_01_0 : ScatterDims S256x256 S2 S128x128 where
  updateWindowDims := [0, 1]
  insertedWindowDims := []
  scatterDimsToOperandDims := [0, 1]
  indexVectorDim := 0
  wf := scatter_S256x256_S2_S128x128_01_n_01_0_wf
def dot_S4096x256_S256x256_S4096x256_1_0_0_1_n_n : DotDims S4096x256 S256x256 S4096x256 where
  lhsContracting := [1]
  rhsContracting := [0]
  lhsNonContracting := [0]
  rhsNonContracting := [1]
  lhsBatch := []
  rhsBatch := []
  wf := dot_S4096x256_S256x256_S4096x256_1_0_0_1_n_n_wf

abbrev win0_0 : Pipeline.Window sig grid0 :=
  Pipeline.Window.ofSpec (Memref.whole main_v9) S4096x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v10) S4096x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4x4096x4096 : Shape := ⟨3, ![4, 4096, 4096]⟩
abbrev S128x128 : Shape := ⟨2, ![128, 128]⟩
abbrev S4x4096x32x128 : Shape := ⟨4, ![4, 4096, 32, 128]⟩

abbrev nBuf : Space → Nat
  | .hbm => 5
  | .vmem => 0
  | .smem => 0
  | _ => 0

abbrev bufTy : (tb : Table) → Fin (tcTables nBuf tb) → BufTy
  | .hbm, ⟨0, _⟩ => ⟨S4x4096x4096, .f32⟩
  | .hbm, ⟨1, _⟩ => ⟨S128x128, .f32⟩
  | .hbm, ⟨2, _⟩ => ⟨S4x4096x32x128, .f32⟩
  | .hbm, ⟨3, _⟩ => ⟨S4x4096x32x128, .f32⟩
  | .hbm, ⟨4, _⟩ => ⟨S4x4096x4096, .f32⟩
  | _, _ => ⟨S4x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]

class Facts₀ : Prop where
  shapeCasts_S4x4096x4096_S4x4096x32x128 : S4x4096x4096.ShapeCasts S4x4096x32x128
  shapeCasts_S4x4096x32x128_S4x4096x4096 : S4x4096x32x128.ShapeCasts S4x4096x4096
  dot_S4x4096x32x128_S128x128_S4x4096x32x128_3_0_012_1_n_n_wf : DotDims.WF S4x4096x32x128 S128x128 S4x4096x32x128 [3] [0] [0, 1, 2] [1] [] []

variable [Facts₀]

def dot_S4x4096x32x128_S128x128_S4x4096x32x128_3_0_012_1_n_n : DotDims S4x4096x32x128 S128x128 S4x4096x32x128 where
  lhsContracting := [3]
  rhsContracting := [0]
  lhsNonContracting := [0, 1, 2]
  rhsNonContracting := [1]
  lhsBatch := []
  rhsBatch := []
  wf := dot_S4x4096x32x128_S128x128_S4x4096x32x128_3_0_012_1_n_n_wf

class Facts : Prop extends Facts₀ where

variable [Facts]
-- ==== Proof.LibMatmulZero.lean ====
/-
  A matrix unit's product into a zero accumulator, read at an index written by coordinates, over the extended reals.

  An `[m, k]` by `[k, n]` product accumulated into the all-zero `[m, n]` array is, at `(a, b)`, the plain sum
  `∑ c, A (a, c) · B (c, b)`: the accumulator contributes `0`, and the contracted axis is enumerated by `c : Fin k`.
-/
import Idealize.ShloMosaic.Lib.Pipeline.Value
import Idealize.ShloMosaic.Lib.ValueIdx
import Idealize.ShloMosaic.PureOps.Ideal.Laws

open scoped BigOperators

namespace Cert.LibMatmulZero

open Idealize.ShloMosaic Idealize.ShloMosaic.ValueIdx

/-- An `[m, k]` by `[k, n]` product into the zero array at `(a, b)`, whatever the record's well-formedness proof. -/
theorem matmul_zero_rows_apply {m k n : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    matmul (⟨[1], [0], [0], [1], [], [], w⟩ : DotDims _ _ _) prec A B
        (constant (F := Ideal) ⟨2, ![m, n]⟩ .f32 0x00000000#32) (ix2 a b)
      = ∑ c : Fin k, A (ix2 a c) * B (ix2 c b) := by
  show FloatOps.matmul _ prec A B (constant ⟨2, ![m, n]⟩ .f32 0x00000000#32) (ix2 a b) = _
  rw [Ideal.matmul_constant_zero_apply,
    ← Equiv.sum_comp (contrEquiv1 (⟨[1], [0], [0], [1], [], [], w⟩ : DotDims _ _ _) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

end Cert.LibMatmulZero
-- ==== Proof.Payload.lean ====
/-
  The kernel body's one stored value, read at a coordinate of the block.

  The body casts its two loaded blocks to the narrower float format (the identity on the extended reals) and multiplies
  them into a zero accumulator: entry `(p, q)` of what it stores is `∑ k, x (p, k) · w (k, q)` over the 256 columns
  of the row block `x` and rows of the weight block `w`.
-/
import proofs.«122894_j29781303230782_2_alg».proof.Proof.Gen.KernelIdeal.Skeleton
import proofs.«122894_j29781303230782_2_alg».proof.Proof.LibMatmulZero
import Idealize.ShloMosaic.Lib.Pipeline.Value
import Idealize.ShloMosaic.Lib.ValueIdx

noncomputable section

open scoped BigOperators

namespace Cert.KernelIdeal.Body

open Idealize.ShloMosaic Idealize.ShloMosaic.ValueIdx Cert.KernelIdeal Cert.KernelIdeal.Gen

variable [Facts]

/-- Entry `(p, q)` of the stored block is row `p` of the loaded row block against column `q` of the loaded weight block. -/
theorem stored_apply (x0 : Vec Ideal S4096x256 .f32) (x1 : Vec Ideal S256x256 .f32) (p : Fin 4096) (q : Fin 256) :
    k0_pay1 (F := Ideal) x0 x1 (ix2 p q) = ∑ k : Fin 256, x0 (ix2 p k) * x1 (ix2 k q) := by
  unfold k0_pay1
  rw [shapeCast_self, shapeCast_self]
  exact Cert.LibMatmulZero.matmul_zero_rows_apply _ none _ _ p q

/-- The same at an index not yet split into coordinates. -/
theorem stored_at (x0 : Vec Ideal S4096x256 .f32) (x1 : Vec Ideal S256x256 .f32) (j : S4096x256.Idx) :
    k0_pay1 (F := Ideal) x0 x1 j = ∑ k : Fin 256, x0 (ix2 (j 0) k) * x1 (ix2 k (j 1)) := by
  obtain ⟨p, q, rfl⟩ : ∃ (p : Fin 4096) (q : Fin 256), j = ix2 p q := ⟨j 0, j 1, eq_ix2 j⟩
  exact stored_apply x0 x1 p q

end Cert.KernelIdeal.Body
-- ==== Proof.Spec.lean ====
/-
  The result both programs compute, as one function of the two arguments.

  The last axis of `x` (4096 wide) is cut into 32 groups of 128 columns, and every group is multiplied by the same
  128×128 matrix `M`:

    y (b, s, d) = ∑ g < 128, x (b, s, 128·⌊d / 128⌋ + g) · M (g, d mod 128).
-/
import Idealize.ShloMosaic.PureOps.Ideal
import Idealize.ShloMosaic.Lib.ValueIdx

noncomputable section

open scoped BigOperators

namespace Cert.Spec

open Idealize.ShloMosaic Idealize.ShloMosaic.ValueIdx

/-- The column of `x` that term `g` of entry `d` reads: column `g` of `d`'s group. -/
def groupCol (d : Fin 4096) (g : Fin 128) : Fin 4096 :=
  ⟨d.val / 128 * 128 + g.val, by have := d.isLt; have := g.isLt; omega⟩

/-- The column of `M` that entry `d` reads: `d`'s position inside its group. -/
def inGroup (d : Fin 4096) : Fin 128 := ⟨d.val % 128, Nat.mod_lt _ (by decide)⟩

/-- Every group of 128 columns of `x` times `M`. -/
def blockwise (x : FVec Ideal ⟨3, ![4, 4096, 4096]⟩ .f32) (M : FVec Ideal ⟨2, ![128, 128]⟩ .f32) :
    FVec Ideal ⟨3, ![4, 4096, 4096]⟩ .f32 :=
  fun i => ∑ g : Fin 128,
    x (ix3 (n0 := 4) (n1 := 4096) (n2 := 4096) (i 0) (i 1) (groupCol (i 2) g))
      * M (ix2 (n0 := 128) (n1 := 128) g (inGroup (i 2)))

/-- Every row of a 262144×256 array `X` against every column of a 256×256 array `W`: the flat matrix product the
    kernel's region computes. -/
def rowsTimes (X : FVec Ideal ⟨2, ![262144, 256]⟩ .f32) (W : FVec Ideal ⟨2, ![256, 256]⟩ .f32) :
    FVec Ideal ⟨2, ![262144, 256]⟩ .f32 :=
  fun i => ∑ k : Fin 256, X (ix2 (n0 := 262144) (n1 := 256) (i 0) k) * W (ix2 (n0 := 256) (n1 := 256) k (i 1))

end Cert.Spec
-- ==== Proof.Blocks.lean ====
/-
  What the kernel's region leaves in its result array, as one function of the two arrays it reads.

  The grid has 64 points; point `t` reads rows `4096 t … 4096 t + 4095` of the 262144×256 row array `X`, the whole
  256×256 weight `W`, and writes the same rows of the result. Entry `(r, q)` of what it writes is row `r` of `X`
  against column `q` of `W`; the 64 row blocks tile the result array, so after the region the array is
  `(r, q) ↦ ∑ k, X (r, k) · W (k, q)` everywhere.
-/
import proofs.«122894_j29781303230782_2_alg».proof.Proof.Gen.KernelIdeal.Frame
import proofs.«122894_j29781303230782_2_alg».proof.Proof.Payload
import proofs.«122894_j29781303230782_2_alg».proof.Proof.Spec
import Idealize.ShloMosaic.Lib.Pipeline.Value
import Idealize.ShloMosaic.Lib.ValueIdx

set_option maxRecDepth 16384

noncomputable section

open scoped BigOperators

namespace Cert.KernelIdeal.Blocks

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem zero_offsets : (![0, 0] : Fin 2 → Nat) = fun _ => 0 := funext fun a => by fin_cases a <;> rfl

/-- The block indices at point `t`: the row array's and the result's blocks are row block `t`, the weight's block is
    the whole weight. -/
theorem block_index : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The body's stored value at point `t`, from blocks read off ANY row array `X` and weight array `W`, is at block
    index `j` the flat product of `X` and `W` at the array index under `j`: the row block's row `j₀` is row
    `4096 t + j₀` of `X`, the weight block is all of `W`, and the result block's entry `j` sits at `(4096 t + j₀, j₁)`. -/
theorem block_product (X : FVec Ideal S262144x256 .f32) (W : FVec Ideal S256x256 .f32) (t : Fin cfg0.N)
    (j : S4096x256.Idx) :
    k0_pay1 (F := Ideal) (((cfg0.win 0).blk t).view.read (Elt Ideal) X) (((cfg0.win 1).blk t).view.read (Elt Ideal) W) j
      = Cert.Spec.rowsTimes X W (((cfg0.win 2).blk t).view.emb j) := by
  obtain ⟨e0, e1, e2, e3, e4, e5⟩ := block_index t
  refine (Cert.KernelIdeal.Body.stored_at _ _ j).trans ?_
  unfold Cert.Spec.rowsTimes
  refine Finset.sum_congr rfl fun k _ => ?_
  refine congrArg₂ (· * ·) ?_ ?_
  · show X (((cfg0.win 0).blk t).view.emb (ix2 (j 0) k)) = X (ix2 ((((cfg0.win 2).blk t).view.emb j) 0) k)
    refine congrArg X (funext fun a => Fin.ext ?_)
    match a with
    | ⟨0, _⟩ =>
      show win0_0.index t (0 : Fin 2) * 4096 + 1 * (j 0).val = win0_2.index t (0 : Fin 2) * 4096 + 1 * (j 0).val
      omega
    | ⟨1, _⟩ =>
      show win0_0.index t (1 : Fin 2) * 256 + 1 * k.val = k.val
      omega
  · show W (((cfg0.win 1).blk t).view.emb (ix2 k (j 1))) = W (ix2 k ((((cfg0.win 2).blk t).view.emb j) 1))
    refine congrArg W (funext fun a => Fin.ext ?_)
    match a with
    | ⟨0, _⟩ =>
      show win0_1.index t (0 : Fin 2) * 256 + 1 * k.val = k.val
      omega
    | ⟨1, _⟩ =>
      show win0_1.index t (1 : Fin 2) * 256 + 1 * (j 1).val = win0_2.index t (1 : Fin 2) * 256 + 1 * (j 1).val
      omega

/-- What point `t` writes back is row block `t` of the flat product of the two arrays as the region finds them. -/
theorem flushed_eq (c : Dev nD) (t : Fin cfg0.N) :
    (dats m 0 c).flushed 2 t
      = ((cfg0.win 2).blk t).view.read (Elt Ideal) (Cert.Spec.rowsTimes (V m c main_v9) (V m c main_v8)) := by
  show (cfg0.win 2).cut (grid0.coords t) ((dats m 0 c).after 2 t) = _
  rw [after0_2]
  unfold out0_2
  rw [View.canon_unit_zero zero_offsets]
  simp only [View.ld_unit_zero (S := S4096x256) zero_offsets, View.ld_unit_zero (S := S256x256) zero_offsets]
  unfold iblk
  funext j
  exact block_product (V m c main_v9) (V m c main_v8) t j

/-- An index of the result array is in point `t`'s block iff each coordinate is in the block's range on its axis. -/
theorem mem_blk (t : Fin cfg0.N) (i : S262144x256.Idx) :
    i ∈ ((cfg0.win 2).blk t).view.set ↔ ∀ a : Fin 2, win0_2.index t a * S4096x256.size a ≤ (i a).val
      ∧ (i a).val < win0_2.index t a * S4096x256.size a + S4096x256.size a := by
  show i ∈ ((View.whole main_v10).slice (win0_2.rect t)).set ↔ _
  rw [View.set_slice_whole, Rect.mem_set_unit]
  exact Iff.rfl

/-- Row `r` of the result array is in the block of point `r / 4096`. -/
theorem covered (i : S262144x256.Idx) :
    ∃ t : Fin cfg0.N, (cfg0.win 2).flush t = true ∧ i ∈ ((cfg0.win 2).blk t).view.set := by
  have hi0 : (i 0).val < 262144 := (i 0).isLt
  have hi1 : (i 1).val < 256 := (i 1).isLt
  have hN : cfg0.N = 64 := N_0
  obtain ⟨t, ht⟩ : ∃ t : Fin cfg0.N, t.val = (i 0).val / 4096 := ⟨⟨(i 0).val / 4096, by rw [hN]; omega⟩, rfl⟩
  obtain ⟨e0, e1, e2, e3, e4, e5⟩ := block_index t
  refine ⟨t, flush0_2 t, ?_⟩
  rw [mem_blk]
  intro a
  match a with
  | ⟨0, _⟩ =>
    show win0_2.index t (0 : Fin 2) * 4096 ≤ (i 0).val ∧ (i 0).val < win0_2.index t (0 : Fin 2) * 4096 + 4096
    omega
  | ⟨1, _⟩ =>
    show win0_2.index t (1 : Fin 2) * 256 ≤ (i 1).val ∧ (i 1).val < win0_2.index t (1 : Fin 2) * 256 + 256
    omega

/-- The result array after the region. -/
theorem final (c : Dev nD) :
    (dats m 0 c).arrAt 2 cfg0.N = Cert.Spec.rowsTimes (V m c main_v9) (V m c main_v8) :=
  (dats m 0 c).arrAt_eq_of_cover 2 _ (fun t _ => flushed_eq m c t) covered

end Cert.KernelIdeal.Blocks
-- ==== Proof.LibScatterSet.lean ====
/-
  A host scatter whose body returns the update (`x.at[…].set(u)`), read at an index.

  The scatter is the left fold, over the update indices in row-major order, of "overwrite the element the update
  lands on". Reading the fold at one operand index `i`: if no update lands on `i` the operand's element is still
  there; if some update lands on `i` and every update that lands there carries one and the same value, that value
  is there. In particular, when a single update index lands on `i`, the result at `i` is that update.
-/
import Idealize.ShloMosaic.PureOps.ShapeOps
import Idealize.ShloMosaic.PureOps.Dims

namespace Cert.LibScatterSet

open Idealize.ShloMosaic

variable {s si u : Shape} {α : Type} {w : Nat}

/-- The fold of overwriting steps over a list of update positions, read at `i`: the common value `v` of the updates
    that land on `i` if there is one in the list, the start value otherwise. -/
theorem fold_apply (d : ScatterDims s si u) (idx : IVec si w) (upd : u.Idx → α) (i : s.Idx) (v : α) :
    ∀ (l : List (Fin u.numel)) (x : s.Idx → α),
      (∀ n ∈ l, d.resultIdx? (u.rowMajor.symm n) idx = some i → upd (u.rowMajor.symm n) = v) →
      l.foldl (fun r n =>
          match d.resultIdx? (u.rowMajor.symm n) idx with
          | some i₀ => fun i' => if i' = i₀ then (fun (_ b : α) => b) (r i₀) (upd (u.rowMajor.symm n)) else r i'
          | none => r) x i
        = if ∃ n ∈ l, d.resultIdx? (u.rowMajor.symm n) idx = some i then v else x i
  | [], x, _ => by simp
  | n :: l, x, h => by
    rw [List.foldl_cons, fold_apply d idx upd i v l _ (fun n' hn' => h n' (List.mem_cons_of_mem _ hn'))]
    by_cases hl : ∃ n' ∈ l, d.resultIdx? (u.rowMajor.symm n') idx = some i
    · obtain ⟨n', hn', e⟩ := hl
      rw [if_pos ⟨n', hn', e⟩, if_pos ⟨n', List.mem_cons_of_mem _ hn', e⟩]
    · rw [if_neg hl]
      cases hg : d.resultIdx? (u.rowMajor.symm n) idx with
      | none =>
        have hn : ¬ ∃ n' ∈ n :: l, d.resultIdx? (u.rowMajor.symm n') idx = some i := by
          rintro ⟨n', hn', e⟩
          rcases List.mem_cons.mp hn' with rfl | h'
          · rw [hg] at e; cases e
          · exact hl ⟨n', h', e⟩
        rw [if_neg hn]
      | some i₀ =>
        by_cases hi : i = i₀
        · subst hi
          rw [if_pos ⟨n, List.mem_cons_self, hg⟩]
          show (if i = i then upd (u.rowMajor.symm n) else x i) = v
          rw [if_pos rfl]
          exact h n List.mem_cons_self hg
        · have hn : ¬ ∃ n' ∈ n :: l, d.resultIdx? (u.rowMajor.symm n') idx = some i := by
            rintro ⟨n', hn', e⟩
            rcases List.mem_cons.mp hn' with rfl | h'
            · rw [hg] at e; exact hi (Option.some.inj e).symm
            · exact hl ⟨n', h', e⟩
          rw [if_neg hn]
          show (if i = i₀ then upd (u.rowMajor.symm n) else x i) = x i
          rw [if_neg hi]

/-- An operand index on which exactly the updates of one common value land (for instance a single update index `j`)
    holds that update after the scatter. -/
theorem scatter_set_hit (d : ScatterDims s si u) (x : s.Idx → α) (idx : IVec si w) (upd : u.Idx → α) (i : s.Idx)
    (j : u.Idx) (hj : d.resultIdx? j idx = some i)
    (hall : ∀ j', d.resultIdx? j' idx = some i → upd j' = upd j) :
    Host.scatter d (fun _ b => b) x idx upd i = upd j := by
  unfold Host.scatter
  refine (fold_apply d idx upd i (upd j) _ x (fun n _ e => hall _ e)).trans ?_
  exact if_pos ⟨u.rowMajor j, List.mem_finRange _, by rw [Equiv.symm_apply_apply]; exact hj⟩

/-- An operand index on which no update lands keeps the operand's element. -/
theorem scatter_set_miss (d : ScatterDims s si u) (x : s.Idx → α) (idx : IVec si w) (upd : u.Idx → α) (i : s.Idx)
    (hm : ∀ j, d.resultIdx? j idx ≠ some i) :
    Host.scatter d (fun _ b => b) x idx upd i = x i := by
  unfold Host.scatter
  refine (fold_apply d idx upd i (x i) _ x (fun n _ e => absurd e (hm _))).trans ?_
  exact if_neg fun ⟨n, _, e⟩ => hm _ e

end Cert.LibScatterSet
-- ==== Proof.Weights.lean ====
/-
  The packed 256×256 weight the host builds before the kernel runs, read at a coordinate.

  The host starts from the all-zero 256×256 array and writes the 128×128 matrix `M` into it twice, each time as one
  window whose start on both axes is a constant (0 the first time, 128 the second): the result is the block-diagonal
  matrix `diag(M, M)`. An update index `(a, b)` of a write starting at `C` lands on `(C + a, C + b)`; two different
  update indices land on different entries, so each entry of the result holds the last write that reaches it, or
  zero if none does:

    W (k, q) = M (k − 128, q − 128)   if 128 ≤ k and 128 ≤ q,
               M (k, q)               if k < 128 and q < 128,
               0                      otherwise.
-/
import proofs.«122894_j29781303230782_2_alg».proof.KernelIdeal
import proofs.«122894_j29781303230782_2_alg».proof.Proof.LibScatterSet
import Idealize.ShloMosaic.Lib.ValueIdx
import Idealize.ShloMosaic.Lib.Pipeline.Value

noncomputable section

namespace Cert.KernelIdeal.Weights

open Idealize.ShloMosaic Idealize.ShloMosaic.ValueIdx Cert.KernelIdeal

variable [Facts₀]
open Facts₀

/-- The window coordinate of update index `j` on an operand axis is `j`'s coordinate on that axis (both axes are window axes). -/
theorem window_eq (j : S128x128.Idx) (a : Fin 2) :
    ScatterDims.window scatter_S256x256_S2_S128x128_01_n_01_0 j a = (j a).val := by
  match a with
  | ⟨0, _⟩ => rfl
  | ⟨1, _⟩ => rfl

/-- When every entry of the index vector is the word `c`, the window starts at `c` (read signed) on both axes. -/
theorem start_eq (j : S128x128.Idx) (idx : IVec S2 32) (c : BitVec 32) (hc : ∀ k, idx k = c) (a : Fin 2) :
    ScatterDims.start scatter_S256x256_S2_S128x128_01_n_01_0 j idx a = c.toInt := by
  unfold ScatterDims.start
  match a with
  | ⟨0, h0⟩ =>
    have hm : (⟨0, h0⟩ : Fin S256x256.rank) ∈ scatter_S256x256_S2_S128x128_01_n_01_0.scatterDimsToOperandDims := List.mem_cons_self
    rw [dif_pos hm, hc]
  | ⟨1, h1⟩ =>
    have hm : (⟨1, h1⟩ : Fin S256x256.rank) ∈ scatter_S256x256_S2_S128x128_01_n_01_0.scatterDimsToOperandDims := List.mem_cons_of_mem _ List.mem_cons_self
    rw [dif_pos hm, hc]

/-- With a constant start `C` that keeps the 128-wide window inside the 256 rows and columns, update index `j` lands on
    `(C + j₀, C + j₁)`. -/
theorem resultIdx_eq (j : S128x128.Idx) (idx : IVec S2 32) (c : BitVec 32) (C : Nat) (hc : ∀ k, idx k = c) (hC : c.toInt = (C : Int))
    (hb : C + 128 ≤ 256) :
    ScatterDims.resultIdx? scatter_S256x256_S2_S128x128_01_n_01_0 j idx
      = some (ix2 ⟨C + (j 0).val, by have : (j 0).val < 128 := (j 0).isLt; show _ < 256; omega⟩ ⟨C + (j 1).val, by have : (j 1).val < 128 := (j 1).isLt; show _ < 256; omega⟩) := by
  unfold ScatterDims.resultIdx?
  have h : ∀ a : Fin 2, 0 ≤ ScatterDims.start scatter_S256x256_S2_S128x128_01_n_01_0 j idx a + (ScatterDims.window scatter_S256x256_S2_S128x128_01_n_01_0 j a : Int)
      ∧ ScatterDims.start scatter_S256x256_S2_S128x128_01_n_01_0 j idx a + (ScatterDims.window scatter_S256x256_S2_S128x128_01_n_01_0 j a : Int) < (S256x256.size a : Int) := by
    intro a
    rw [start_eq j idx c hc a, window_eq j a, hC]
    have : (j a).val < 128 := by
      match a with
      | ⟨0, _⟩ => exact (j 0).isLt
      | ⟨1, _⟩ => exact (j 1).isLt
    have hs : (S256x256.size a : Int) = 256 := by
      match a with
      | ⟨0, _⟩ => rfl
      | ⟨1, _⟩ => rfl
    rw [hs]; omega
  rw [dif_pos h]
  congr 1
  funext a
  apply Fin.ext
  match a with
  | ⟨0, _⟩ =>
    show (ScatterDims.start scatter_S256x256_S2_S128x128_01_n_01_0 j idx 0 + (ScatterDims.window scatter_S256x256_S2_S128x128_01_n_01_0 j 0 : Int)).toNat = C + (j 0).val
    rw [start_eq j idx c hc 0, window_eq j 0, hC]; omega
  | ⟨1, _⟩ =>
    show (ScatterDims.start scatter_S256x256_S2_S128x128_01_n_01_0 j idx 1 + (ScatterDims.window scatter_S256x256_S2_S128x128_01_n_01_0 j 1 : Int)).toNat = C + (j 1).val
    rw [start_eq j idx c hc 1, window_eq j 1, hC]; omega

variable {F : FTy → Type} [FloatOps F]

/-- The index vector both of whose entries are the word `c`. -/
def startVec (c : BitVec 32) : IVec S2 32 :=
  concatenate S2 0 [⟨S1, broadcastInDim S1 ![] bcast_S_S1 (constantI S_ 32 c)⟩, ⟨S1, broadcastInDim S1 ![] bcast_S_S1 (constantI S_ 32 c)⟩] concatenates_S1_S1_S2_d0

/-- Both entries of that vector are `c`. -/
theorem startVec_apply (c : BitVec 32) (k : S2.Idx) : startVec c k = c := by
  unfold startVec
  by_cases hk : (k 0).val = 0
  · exact (concatenate_pair_apply_left (s₁ := S1) (s₂ := S1) (0 : Fin S2.rank) _ _ _ k rfl (ix1 ⟨0, by decide⟩)
      (fun b => by match b with | ⟨0, _⟩ => exact hk.symm)).trans rfl
  · have h2 : (k 0).val < 2 := (k 0).isLt
    exact (concatenate_pair_apply_right (s₁ := S1) (s₂ := S1) (0 : Fin S2.rank) _ _ _ k rfl rfl (ix1 ⟨0, by decide⟩)
      (fun b hb => absurd (by match b with | ⟨0, _⟩ => rfl) hb) (by show 0 + 1 = (k 0).val; omega)).trans rfl

/-- The packed weight: zeros, then the matrix written at rows and columns 0–127, then again at rows and columns 128–255. -/
def W2 (M : FVec F S128x128 .f32) : FVec F S256x256 .f32 :=
  Host.scatter scatter_S256x256_S2_S128x128_01_n_01_0 (fun _ b => b)
    (Host.scatter scatter_S256x256_S2_S128x128_01_n_01_0 (fun _ b => b)
      (broadcastInDim S256x256 ![] bcast_S_S256x256 (constant S_ .f32 0x00000000#32)) (startVec 0#32) M)
    (startVec 128#32) M

/-- Update index `j` of a write starting at `C` lands on `(k, q)` exactly when `k = C + j₀` and `q = C + j₁`. -/
theorem lands (j : S128x128.Idx) (c : BitVec 32) (C : Nat) (hC : c.toInt = (C : Int)) (hb : C + 128 ≤ 256) (k q : Fin 256) :
    ScatterDims.resultIdx? scatter_S256x256_S2_S128x128_01_n_01_0 j (startVec c) = some (ix2 k q)
      ↔ k.val = C + (j 0).val ∧ q.val = C + (j 1).val := by
  rw [resultIdx_eq j (startVec c) c C (startVec_apply c) hC hb]
  constructor
  · intro h
    have h' := Option.some.inj h
    exact ⟨(congrArg Fin.val (congrFun h' 0)).symm, (congrArg Fin.val (congrFun h' 1)).symm⟩
  · rintro ⟨h0, h1⟩
    congr 1
    funext a
    apply Fin.ext
    match a with
    | ⟨0, _⟩ => exact h0.symm
    | ⟨1, _⟩ => exact h1.symm

/-- The packed weight read at `(k, q)`: the matrix at `(k − 128, q − 128)` on the lower-right quadrant, the matrix at
    `(k, q)` on the upper-left quadrant, the zero word elsewhere. -/
theorem W2_apply (M : FVec F S128x128 .f32) (k q : Fin 256) :
    W2 M (ix2 k q) =
      if h : 128 ≤ k.val ∧ 128 ≤ q.val then
        M (ix2 ⟨k.val - 128, by have := k.isLt; omega⟩ ⟨q.val - 128, by have := q.isLt; omega⟩)
      else if h' : k.val < 128 ∧ q.val < 128 then M (ix2 ⟨k.val, h'.1⟩ ⟨q.val, h'.2⟩)
      else FloatOps.ofBits .f32 0x00000000#32 := by
  unfold W2
  by_cases h : 128 ≤ k.val ∧ 128 ≤ q.val
  · rw [dif_pos h]
    refine Cert.LibScatterSet.scatter_set_hit _ _ _ M (ix2 k q)
      (ix2 ⟨k.val - 128, by have := k.isLt; omega⟩ ⟨q.val - 128, by have := q.isLt; omega⟩) ?_ ?_
    · rw [lands _ 128#32 128 (by decide) (by omega)]
      show k.val = 128 + (k.val - 128) ∧ q.val = 128 + (q.val - 128)
      omega
    · intro j' hj'
      rw [lands _ 128#32 128 (by decide) (by omega)] at hj'
      congr 1
      funext a
      apply Fin.ext
      match a with
      | ⟨0, _⟩ => show (j' 0).val = k.val - 128; omega
      | ⟨1, _⟩ => show (j' 1).val = q.val - 128; omega
  · rw [dif_neg h]
    rw [Cert.LibScatterSet.scatter_set_miss _ _ _ M (ix2 k q) (fun j hj => h (by
      rw [lands _ 128#32 128 (by decide) (by omega)] at hj; omega))]
    by_cases h' : k.val < 128 ∧ q.val < 128
    · rw [dif_pos h']
      refine Cert.LibScatterSet.scatter_set_hit _ _ _ M (ix2 k q) (ix2 ⟨k.val, h'.1⟩ ⟨q.val, h'.2⟩) ?_ ?_
      · rw [lands _ 0#32 0 (by decide) (by omega)]
        show k.val = 0 + k.val ∧ q.val = 0 + q.val
        omega
      · intro j' hj'
        rw [lands _ 0#32 0 (by decide) (by omega)] at hj'
        congr 1
        funext a
        apply Fin.ext
        match a with
        | ⟨0, _⟩ => show (j' 0).val = k.val; omega
        | ⟨1, _⟩ => show (j' 1).val = q.val; omega
    · rw [dif_neg h']
      rw [Cert.LibScatterSet.scatter_set_miss _ _ _ M (ix2 k q) (fun j hj => h' (by
        rw [lands _ 0#32 0 (by decide) (by omega)] at hj
        have h0 : (j 0).val < 128 := (j 0).isLt
        have h1 : (j 1).val < 128 := (j 1).isLt
        omega))]
      rfl

end Cert.KernelIdeal.Weights
-- ==== Proof.Entry.lean ====
/-
  The two arrays the kernel's region reads, as the host operations before it leave them.

  The row array is the first argument `x` re-laid from 4×4096×4096 to 262144×256 (the same elements in row-major
  order); the weight array is the packed block-diagonal weight built from the second argument.
-/
import proofs.«122894_j29781303230782_2_alg».proof.Proof.Gen.KernelIdeal.Frame
import proofs.«122894_j29781303230782_2_alg».proof.Proof.Weights
import Idealize.ShloMosaic.Lib.StableHlo.Run

noncomputable section

namespace Cert.KernelIdeal.Entry

open Cert.KernelIdeal Cert.KernelIdeal.Gen Idealize.ShloMosaic Idealize.ShloMosaic.TcCoe Idealize.SL.Sem
open Idealize.ShloMosaic.StableHlo

variable {F : FTy → Type} [FloatOps F]
variable (m : (ℓ : Loc nD τ sig) → Buf (Elt F) ℓ)

/-- The weight array the region finds is the packed weight of the second argument. -/
theorem weight_eq (c : Dev nD) :
    (V m c main_v8 : S256x256.Idx → Elt F .f32)
      = Cert.KernelIdeal.Weights.W2 (m ((c.tc : Thread nD τ).loc main_arg1)) := by
  show StableHlo.after hostOps0 (fun b => m (c, b)) (Proc.devRef .tc main_v8) = _
  after_results
  rfl

/-- The row array the region finds is the first argument re-laid as 262144 rows of 256. -/
theorem rows_eq (c : Dev nD) :
    (V m c main_v9 : S262144x256.Idx → Elt F .f32)
      = shapeCast S262144x256 (m ((c.tc : Thread nD τ).loc main_arg0)) Facts₀.shapeCasts_S4x4096x4096_S262144x256 := by
  show StableHlo.after hostOps0 (fun b => m (c, b)) (Proc.devRef .tc main_v9) = _
  after_results
  rfl

end Cert.KernelIdeal.Entry
-- ==== Proof.Tail.lean ====
/-
  The kernel program's run, read: its result as one function of its two arguments.

  After the region the result array holds the flat product of the row array and the packed weight; the one host
  operation after the region re-lays that array as 4×4096×4096. Both arrays the region reads are functions of the
  arguments alone, so the program's result is the re-laid flat product of the re-laid first argument with the packed
  weight of the second.
-/
import proofs.«122894_j29781303230782_2_alg».proof.Proof.Blocks
import proofs.«122894_j29781303230782_2_alg».proof.Proof.Entry
import Idealize.ShloMosaic.Lib.StableHlo.Run

noncomputable section

namespace Cert.KernelIdeal.Tail

open Cert.KernelIdeal Cert.KernelIdeal.Gen Idealize.ShloMosaic Idealize.ShloMosaic.TcCoe Idealize.SL.Sem
open Idealize.ShloMosaic.StableHlo
open Idealize.ShloMosaic.Pipeline (Dat)

variable (m : (ℓ : Loc nD τ sig) → Buf (Elt Ideal) ℓ) (ρ : Dev nD → PrngReg)

/-- The program's result as a function of its arguments. -/
def result (c : Dev nD) : Buf (Elt Ideal) ((c.tc : Thread nD τ).loc main_v11) :=
  shapeCast S4x4096x4096
    (Cert.Spec.rowsTimes
      (shapeCast S262144x256 (m ((c.tc : Thread nD τ).loc main_arg0)) Facts₀.shapeCasts_S4x4096x4096_S262144x256)
      (Cert.KernelIdeal.Weights.W2 (m ((c.tc : Thread nD τ).loc main_arg1))))
    Facts₀.shapeCasts_S262144x256_S4x4096x4096

/-- What the host operation after the region leaves in the result buffer: the region's result array, re-laid. -/
theorem tail_eq (c : Dev nD) :
    Pipeline.afterTail₀ cfgs (dats m) 0 (V0 m) [hostOps1] c main_v11
      = shapeCast S4x4096x4096 ((dats m 0 c).arrAt 2 cfg0.N) Facts₀.shapeCasts_S262144x256_S4x4096x4096 := by
  unfold Pipeline.afterTail₀
  show StableHlo.after hostOps1 _ (Proc.devRef .tc main_v11) = _
  after_results
  exact congrArg (fun a => shapeCast S4x4096x4096 a Facts₀.shapeCasts_S262144x256_S4x4096x4096)
    (Pipeline.withArrays_arr spec0 launch0.win.arr_inj c _ _ 2)

/-- The result buffer after the run is `result` of the arguments. -/
theorem result_eq (c : Dev nD) :
    Pipeline.afterTail₀ cfgs (dats m) 0 (V0 m) [hostOps1] c main_v11 = result m c := by
  rw [tail_eq, Cert.KernelIdeal.Blocks.final, Cert.KernelIdeal.Entry.weight_eq, Cert.KernelIdeal.Entry.rows_eq]
  rfl

/-- Every weakly fair execution of the kernel program terminates with its result at `result` of the arguments and the
    arguments unchanged. -/
theorem run : θ_run defs (onTc (τ := τ) (main (F := Ideal))) ⟨m, fun _ => 0, ρ⟩ fun r => ∀ c : Dev nD,
      r.2.mem ((c.tc : Thread nD τ).loc main_v11) = result m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v11 (Pipeline.mem_restRefs_of main_v11 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.Tail
-- ==== Proof.Bridge.lean ====
/-
  The kernel's arithmetic is the reference's: the flat product with the packed weight, re-laid, is `Spec.blockwise`.

  Entry `(b, s, d)` of the re-laid result is entry `(r, q)` of the flat product with `r = 16 (4096 b + s) + ⌊d / 256⌋`
  and `q = d mod 256`, that is `∑ k < 256, x (b, s, 256·⌊d / 256⌋ + k) · W (k, q)` with `W = diag(M, M)`. The sum over
  `k < 256` is the sum over `k < 128` plus the sum over `128 ≤ k < 256`. When `q < 128` the second sum's weights are
  all zero and the first is `∑ g, x (b, s, 256·⌊d / 256⌋ + g) · M (g, q)`; when `q ≥ 128` the first sum's weights are all
  zero and the second is `∑ g, x (b, s, 256·⌊d / 256⌋ + 128 + g) · M (g, q − 128)`. In both cases the columns read are
  `128·⌊d / 128⌋ + g` and the matrix column is `d mod 128`. A product with the zero weight is zero for every extended
  real, infinite ones included, so no finiteness of the inputs is used.
-/
import proofs.«122894_j29781303230782_2_alg».proof.Proof.Weights
import proofs.«122894_j29781303230782_2_alg».proof.Proof.Spec
import Idealize.ShloMosaic.Lib.Pipeline.Value
import Idealize.ShloMosaic.PureOps.Ideal.Laws

noncomputable section

open scoped BigOperators

namespace Cert.KernelIdeal.Bridge

open Idealize.ShloMosaic Idealize.ShloMosaic.ValueIdx Cert.KernelIdeal Cert.KernelIdeal.Weights Cert.Spec

variable [Facts₀]
open Facts₀

/-- A sum over 256 terms is the sum of its first 128 and its last 128. -/
theorem sum_halves (f : Fin 256 → EReal) :
    ∑ k : Fin 256, f k
      = ∑ g : Fin 128, f ⟨g.val, by have := g.isLt; omega⟩ + ∑ g : Fin 128, f ⟨128 + g.val, by have := g.isLt; omega⟩ :=
  Fin.sum_univ_add (a := 128) (b := 128) f

theorem x_congr (x : FVec Ideal S4x4096x4096 .f32) (b : Fin 4) (s : Fin 4096) {A B : Nat} (hA : A < 4096) (hB : B < 4096)
    (e : A = B) : x (ix3 b s ⟨A, hA⟩) = x (ix3 b s ⟨B, hB⟩) := by subst e; rfl

theorem M_congr (M : FVec Ideal S128x128 .f32) (g : Fin 128) {A B : Nat} (hA : A < 128) (hB : B < 128)
    (e : A = B) : M (ix2 g ⟨A, hA⟩) = M (ix2 g ⟨B, hB⟩) := by subst e; rfl

/-- The flat product of the re-laid `x` with the packed weight, re-laid back, is every group of 128 columns of `x` times `M`. -/
theorem product_eq (x : FVec Ideal S4x4096x4096 .f32) (M : FVec Ideal S128x128 .f32) :
    shapeCast S4x4096x4096
        (rowsTimes (shapeCast S262144x256 x shapeCasts_S4x4096x4096_S262144x256) (W2 (F := Ideal) M))
        shapeCasts_S262144x256_S4x4096x4096
      = blockwise x M := by
  funext i
  obtain ⟨b, s, d, rfl⟩ : ∃ (b : Fin 4) (s : Fin 4096) (d : Fin 4096), i = ix3 b s d := ⟨i 0, i 1, i 2, eq_ix3 i⟩
  have hb : b.val < 4 := b.isLt
  have hs : s.val < 4096 := s.isLt
  have hd : d.val < 4096 := d.isLt
  obtain ⟨R, hR⟩ : ∃ R : Fin 262144, R.val = (b.val * 4096 + s.val) * 16 + d.val / 256 := ⟨⟨_, by omega⟩, rfl⟩
  obtain ⟨J, hJ⟩ : ∃ J : Fin 256, J.val = d.val % 256 := ⟨⟨_, by omega⟩, rfl⟩
  rw [shapeCast_apply _ shapeCasts_S262144x256_S4x4096x4096 (ix3 b s d) (ix2 R J) (by
    rewrite [Shape.rowMajor_val_two, Shape.rowMajor_val_three]
    show R.val * 256 + J.val = (b.val * 4096 + s.val) * 4096 + d.val
    omega)]
  have hrow : ∀ k : Fin 256, shapeCast S262144x256 x shapeCasts_S4x4096x4096_S262144x256 (ix2 R k)
      = x (ix3 b s ⟨d.val / 256 * 256 + k.val, by have := k.isLt; omega⟩) := fun k =>
    shapeCast_apply x shapeCasts_S4x4096x4096_S262144x256 (ix2 R k) _ (by
      rewrite [Shape.rowMajor_val_three, Shape.rowMajor_val_two]
      show (b.val * 4096 + s.val) * 4096 + (d.val / 256 * 256 + k.val) = R.val * 256 + k.val
      omega)
  show ∑ k : Fin 256, shapeCast S262144x256 x shapeCasts_S4x4096x4096_S262144x256 (ix2 R k) * W2 (F := Ideal) M (ix2 k J)
    = ∑ g : Fin 128, x (ix3 b s (groupCol d g)) * M (ix2 g (inGroup d))
  rw [sum_halves]
  by_cases hq : d.val % 256 < 128
  · have e1 : ∀ g : Fin 128,
        shapeCast S262144x256 x shapeCasts_S4x4096x4096_S262144x256 (ix2 R ⟨g.val, by have := g.isLt; omega⟩)
          * W2 (F := Ideal) M (ix2 ⟨g.val, by have := g.isLt; omega⟩ J)
        = x (ix3 b s (groupCol d g)) * M (ix2 g (inGroup d)) := fun g => by
      have hg : g.val < 128 := g.isLt
      rw [hrow, W2_apply, dif_neg (by show ¬(128 ≤ g.val ∧ 128 ≤ J.val); omega),
        dif_pos (show g.val < 128 ∧ J.val < 128 by omega)]
      unfold groupCol inGroup
      exact congrArg₂ (· * ·) (x_congr x b s _ _ (by show d.val / 256 * 256 + g.val = d.val / 128 * 128 + g.val; omega))
        (M_congr M g _ _ (by show J.val = d.val % 128; omega))
    have e2 : ∀ g : Fin 128,
        shapeCast S262144x256 x shapeCasts_S4x4096x4096_S262144x256 (ix2 R ⟨128 + g.val, by have := g.isLt; omega⟩)
          * W2 (F := Ideal) M (ix2 ⟨128 + g.val, by have := g.isLt; omega⟩ J) = 0 := fun g => by
      have hg : g.val < 128 := g.isLt
      rw [W2_apply, dif_neg (by show ¬(128 ≤ 128 + g.val ∧ 128 ≤ J.val); omega),
        dif_neg (by show ¬(128 + g.val < 128 ∧ J.val < 128); omega)]
      show _ * Ideal.ofBits .f32 0x00000000#32 = 0
      rw [Ideal.ofBits_zero_f32, mul_zero]
    rw [Finset.sum_congr rfl (fun g _ => e1 g), Finset.sum_congr rfl (fun g _ => e2 g), Finset.sum_const_zero, add_zero]
  · have e1 : ∀ g : Fin 128,
        shapeCast S262144x256 x shapeCasts_S4x4096x4096_S262144x256 (ix2 R ⟨g.val, by have := g.isLt; omega⟩)
          * W2 (F := Ideal) M (ix2 ⟨g.val, by have := g.isLt; omega⟩ J) = 0 := fun g => by
      have hg : g.val < 128 := g.isLt
      rw [W2_apply, dif_neg (by show ¬(128 ≤ g.val ∧ 128 ≤ J.val); omega),
        dif_neg (by show ¬(g.val < 128 ∧ J.val < 128); omega)]
      show _ * Ideal.ofBits .f32 0x00000000#32 = 0
      rw [Ideal.ofBits_zero_f32, mul_zero]
    have e2 : ∀ g : Fin 128,
        shapeCast S262144x256 x shapeCasts_S4x4096x4096_S262144x256 (ix2 R ⟨128 + g.val, by have := g.isLt; omega⟩)
          * W2 (F := Ideal) M (ix2 ⟨128 + g.val, by have := g.isLt; omega⟩ J)
        = x (ix3 b s (groupCol d g)) * M (ix2 g (inGroup d)) := fun g => by
      have hg : g.val < 128 := g.isLt
      rw [hrow, W2_apply, dif_pos (show 128 ≤ 128 + g.val ∧ 128 ≤ J.val by omega)]
      unfold groupCol inGroup
      exact congrArg₂ (· * ·)
        (x_congr x b s _ _ (by show d.val / 256 * 256 + (128 + g.val) = d.val / 128 * 128 + g.val; omega))
        ((M_congr M ⟨128 + g.val - 128, by omega⟩ _ _ (by show J.val - 128 = d.val % 128; omega)).trans
          (congrArg (fun g' => M (ix2 g' (⟨d.val % 128, Nat.mod_lt _ (by decide)⟩ : Fin 128))) (Fin.ext (by show 128 + g.val - 128 = g.val; omega))))
    rw [Finset.sum_congr rfl (fun g _ => e1 g), Finset.sum_congr rfl (fun g _ => e2 g), Finset.sum_const_zero, zero_add]

end Cert.KernelIdeal.Bridge
-- ==== Proof.RefSpec.lean ====
/-
  The reference computes `Spec.blockwise`.

  The reference re-lays `x` as 4×4096×32×128 (group `n`, position `g` of the last axis is column `128 n + g`),
  contracts the last axis with the rows of `M`, and re-lays the result back: entry `(b, s, d)` of the result is
  entry `(b, s, ⌊d / 128⌋, d mod 128)` of the contraction, which is `∑ g, x (b, s, 128·⌊d / 128⌋ + g) · M (g, d mod 128)`.
-/
import proofs.«122894_j29781303230782_2_alg».proof.Proof.Gen.ReferenceIdeal.Read
import proofs.«122894_j29781303230782_2_alg».proof.Proof.Spec

noncomputable section

open scoped BigOperators

namespace Cert.ReferenceIdeal.RefSpec

open Idealize.ShloMosaic Idealize.ShloMosaic.ValueIdx Cert.ReferenceIdeal Cert.ReferenceIdeal.Read

/-- The reference's result, as a function of its two arguments, is `Spec.blockwise`. -/
theorem reference_eq (x0 : (⟨S4x4096x4096, .f32⟩ : BufTy).Contents (Elt Ideal))
    (x1 : (⟨S128x128, .f32⟩ : BufTy).Contents (Elt Ideal)) :
    val_main_v2 (F := Ideal) x0 x1 = Cert.Spec.blockwise x0 x1 := by
  funext i
  have h0 : (i 0).val < 4 := (i 0).isLt
  have h1 : (i 1).val < 4096 := (i 1).isLt
  have h2 : (i 2).val < 4096 := (i 2).isLt
  rw [val_main_v2_apply, val_main_v1_apply]
  unfold Cert.Spec.blockwise
  refine Finset.sum_congr rfl fun k _ => ?_
  have hk : k.val < 128 := k.isLt
  rw [val_main_v0_apply]
  refine congrArg₂ (· * ·) (congrArg x0 (funext fun a => Fin.ext ?_)) (congrArg x1 (funext fun a => Fin.ext ?_))
  · match a with
    | ⟨0, _⟩ =>
      show ((((((i 0).val * 4096 + (i 1).val) * 4096 + (i 2).val) / 16777216 * 4096 + (((i 0).val * 4096 + (i 1).val) * 4096 + (i 2).val) / 4096 % 4096) * 32 + (((i 0).val * 4096 + (i 1).val) * 4096 + (i 2).val) / 128 % 32) * 128 + k.val) / 16777216 = (i 0).val
      omega
    | ⟨1, _⟩ =>
      show ((((((i 0).val * 4096 + (i 1).val) * 4096 + (i 2).val) / 16777216 * 4096 + (((i 0).val * 4096 + (i 1).val) * 4096 + (i 2).val) / 4096 % 4096) * 32 + (((i 0).val * 4096 + (i 1).val) * 4096 + (i 2).val) / 128 % 32) * 128 + k.val) / 4096 % 4096 = (i 1).val
      omega
    | ⟨2, _⟩ =>
      show ((((((i 0).val * 4096 + (i 1).val) * 4096 + (i 2).val) / 16777216 * 4096 + (((i 0).val * 4096 + (i 1).val) * 4096 + (i 2).val) / 4096 % 4096) * 32 + (((i 0).val * 4096 + (i 1).val) * 4096 + (i 2).val) / 128 % 32) * 128 + k.val) % 4096 = (i 2).val / 128 * 128 + k.val
      omega
  · match a with
    | ⟨0, _⟩ => rfl
    | ⟨1, _⟩ =>
      show (((i 0).val * 4096 + (i 1).val) * 4096 + (i 2).val) % 128 = (i 2).val % 128
      omega

end Cert.ReferenceIdeal.RefSpec
-- ==== Proof.lean ====
/-
  A block-diagonal matrix product, packed two blocks at a time, against the same product taken group by group.

  Both programs compute `y = x · diag(M, …, M)` for `x` of shape 4×4096×4096 and `M` of shape 128×128 (32 diagonal copies):

    y (b, s, d) = ∑ g < 128, x (b, s, 128·⌊d / 128⌋ + g) · M (g, d mod 128).

  The reference re-lays `x` as 4×4096×32×128, contracts the last axis with `M`, and re-lays the result back
  (Proof/RefSpec.lean). The kernel program first builds the 256×256 weight `W = diag(M, M)` on the host — zeros
  overwritten by `M` at rows and columns 0–127 and again at 128–255 (Proof/Weights.lean) —, re-lays `x` as 262144 rows
  of 256, and on a grid of 64 row blocks multiplies each 4096×256 block by `W` into a zero accumulator, the operands
  first cast to a narrower float format, which is the identity on the extended reals (Proof/Payload.lean). The 64
  blocks tile the result (Proof/Blocks.lean), the arrays the region reads are functions of the arguments
  (Proof/Entry.lean), and the host re-lays the region's result as 4×4096×4096 (Proof/Tail.lean). The two results agree
  because a row of 256 against `diag(M, M)` splits into its two halves of 128, one of which meets only zero weights,
  and a product with zero is zero on the extended reals whatever the other factor (Proof/Bridge.lean): the
  finiteness of the inputs is never used.

  The three frame claims are the generated frames of the two kernel programs and the reference's generated run with
  its result dropped; the idealization rewrote no operation, so `preserves` is trivial.
-/
import proofs.«122894_j29781303230782_2_alg».proof.Defs
import proofs.«122894_j29781303230782_2_alg».proof.Proof.Gen.Kernel
import proofs.«122894_j29781303230782_2_alg».proof.Proof.Gen.Kernel.Skeleton
import proofs.«122894_j29781303230782_2_alg».proof.Proof.Gen.Kernel.Launch
import proofs.«122894_j29781303230782_2_alg».proof.Proof.Gen.Kernel.Points
import proofs.«122894_j29781303230782_2_alg».proof.Proof.Gen.Kernel.Frame
import proofs.«122894_j29781303230782_2_alg».proof.Proof.Gen.KernelIdeal
import proofs.«122894_j29781303230782_2_alg».proof.Proof.Gen.KernelIdeal.Skeleton
import proofs.«122894_j29781303230782_2_alg».proof.Proof.Gen.KernelIdeal.Launch
import proofs.«122894_j29781303230782_2_alg».proof.Proof.Gen.KernelIdeal.Points
import proofs.«122894_j29781303230782_2_alg».proof.Proof.Gen.KernelIdeal.Frame
import proofs.«122894_j29781303230782_2_alg».proof.Proof.Gen.ReferenceIdeal
import proofs.«122894_j29781303230782_2_alg».proof.Proof.Gen.ReferenceIdeal.Run
import proofs.«122894_j29781303230782_2_alg».proof.Proof.Gen.ReferenceIdeal.Read
import proofs.«122894_j29781303230782_2_alg».proof.Proof.Gen.Pre_finite_inputs
import proofs.«122894_j29781303230782_2_alg».proof.Proof.Tail
import proofs.«122894_j29781303230782_2_alg».proof.Proof.Bridge
import proofs.«122894_j29781303230782_2_alg».proof.Proof.RefSpec
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

/-- From memories that agree on `x` and `M`, the kernel program ends with the re-laid flat product of the re-laid `x`
    with `diag(M, M)`, the reference with every group of 128 columns of `x` times `M`: one function of the arguments. -/
theorem algebraic : Cert.algebraic_KernelIdeal_ReferenceIdeal := by
  intro m ρ m' ρ' _ hagree
  refine ⟨fun c => Cert.KernelIdeal.Tail.result m c, Cert.KernelIdeal.Tail.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v2_eq, Cert.ReferenceIdeal.RefSpec.reference_eq, (hagree c).1, (hagree c).2]
  exact (Cert.KernelIdeal.Bridge.product_eq _ _).symm

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
